-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x400000 32) (main_arg2 : IVec S100000 32) (main_arg3 : FVec F S128x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S100000x256 : Shape := ⟨2, ![100000, 256]⟩
abbrev S5000x128 : Shape := ⟨2, ![5000, 128]⟩
abbrev S5000x256 : Shape := ⟨2, ![5000, 256]⟩
abbrev S500000x256 : Shape := ⟨2, ![500000, 256]⟩
abbrev S1x256 : Shape := ⟨2, ![1, 256]⟩
abbrev S2048 : Shape := ⟨1, ![2048]⟩
abbrev S100000x1 : Shape := ⟨2, ![100000, 1]⟩
abbrev S2048x256 : Shape := ⟨2, ![2048, 256]⟩
abbrev S2048x1 : Shape := ⟨2, ![2048, 1]⟩
abbrev S1x128 : Shape := ⟨2, ![1, 128]⟩
abbrev S2048x128 : Shape := ⟨2, ![2048, 128]⟩

abbrev nBuf : Space → Nat
  | .hbm => 113
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x400000, .i32⟩
  | .hbm, ⟨10, _⟩ => ⟨S400000, .i32⟩
  | .hbm, ⟨11, _⟩ => ⟨S1x400000, .i32⟩
  | .hbm, ⟨12, _⟩ => ⟨S400000, .i32⟩
  | .hbm, ⟨13, _⟩ => ⟨S100000, .i32⟩
  | .hbm, ⟨14, _⟩ => ⟨S500000, .i32⟩
  | .hbm, ⟨15, _⟩ => ⟨S500000, .i32⟩
  | .hbm, ⟨16, _⟩ => ⟨S_, .f32⟩
  | .hbm, ⟨17, _⟩ => ⟨S500000, .f32⟩
  | .hbm, ⟨18, _⟩ => ⟨S_, .f32⟩
  | .hbm, ⟨19, _⟩ => ⟨S100000, .f32⟩
  | .hbm, ⟨20, _⟩ => ⟨S500000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000, .f32⟩
  | .hbm, ⟨48, _⟩ => ⟨S500000, .f32⟩
  | .hbm, ⟨49, _⟩ => ⟨S100000x256, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x256, .f32⟩
  | .hbm, ⟨59, _⟩ => ⟨S500000x1, .f32⟩
  | .hbm, ⟨60, _⟩ => ⟨S500000x256, .f32⟩
  | .hbm, ⟨61, _⟩ => ⟨S500000x256, .f32⟩
  | .hbm, ⟨62, _⟩ => ⟨S_, .f32⟩
  | .hbm, ⟨63, _⟩ => ⟨S100000x256, .f32⟩
  | .hbm, ⟨64, _⟩ => ⟨S500000x1, .i32⟩
  | .hbm, ⟨65, _⟩ => ⟨S100000x256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x256, .f32⟩
  | .hbm, ⟨82, _⟩ => ⟨S500000x1, .f32⟩
  | .hbm, ⟨83, _⟩ => ⟨S500000x256, .f32⟩
  | .hbm, ⟨84, _⟩ => ⟨S500000x256, .f32⟩
  | .hbm, ⟨85, _⟩ => ⟨S_, .f32⟩
  | .hbm, ⟨86, _⟩ => ⟨S100000x256, .f32⟩
  | .hbm, ⟨87, _⟩ => ⟨S500000x1, .i32⟩
  | .hbm, ⟨88, _⟩ => ⟨S100000x256, .f32⟩
  | .hbm, ⟨89, _⟩ => ⟨S1x256, .f32⟩
  | .hbm, ⟨90, _⟩ => ⟨S100000x256, .f32⟩
  | .hbm, ⟨91, _⟩ => ⟨S100000x256, .f32⟩
  | .hbm, ⟨92, _⟩ => ⟨S_, .f32⟩
  | .hbm, ⟨93, _⟩ => ⟨S100000x256, .f32⟩
  | .hbm, ⟨94, _⟩ => ⟨S100000x256, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S2048, .f32⟩
  | .hbm, ⟨99, _⟩ => ⟨S100000x1, .i32⟩
  | .hbm, ⟨100, _⟩ => ⟨S2048, .f32⟩
  | .hbm, ⟨101, _⟩ => ⟨S_, .f32⟩
  | .hbm, ⟨102, _⟩ => ⟨S2048x256, .f32⟩
  | .hbm, ⟨103, _⟩ => ⟨S100000x1, .i32⟩
  | .hbm, ⟨104, _⟩ => ⟨S2048x256, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S2048x1, .f32⟩
  | .hbm, ⟨109, _⟩ => ⟨S2048x256, .f32⟩
  | .hbm, ⟨110, _⟩ => ⟨S2048x256, .f32⟩
  | .hbm, ⟨111, _⟩ => ⟨S1x128, .f32⟩
  | .hbm, ⟨112, _⟩ => ⟨S2048x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S2048x256, .f32⟩
  | .local _ .vmem, ⟨11, _⟩ => ⟨S256x128, .f32⟩
  | .local _ .vmem, ⟨12, _⟩ => ⟨S1x128, .f32⟩
  | .local _ .vmem, ⟨13, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S2048 : S_.BroadcastsInDim S2048 (![] : Fin 0 → Fin S2048.rank)
  bcast_S100000_S100000x1_0 : S100000.BroadcastsInDim S100000x1 (![0] : Fin 1 → Fin S100000x1.rank)
  bcast_S_S2048x256 : S_.BroadcastsInDim S2048x256 (![] : Fin 0 → Fin S2048x256.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S5000x128_S128x256_S5000x256_1_0_0_1_n_n_wf : DotDims.WF S5000x128 S128x256 S5000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S5000x256_S256x256_S5000x256_1_0_0_1_n_n_wf : DotDims.WF S5000x256 S256x256 S5000x256 [1] [0] [0] [1] [] []
  scatter_S2048_S100000x1_S100000_n_0_0_1_wf : ScatterDims.WF S2048 S100000x1 S100000 [] [0] [0] 1
  scatter_S2048x256_S100000x1_S100000x256_1_0_0_1_wf : ScatterDims.WF S2048x256 S100000x1 S100000x256 [1] [0] [0] 1
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .f32 = 32 ∨ (Rect.block (s := S2048x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S2048x128.size a
  hwx2_3 : ∀ i : grid2.Coords, EltTy.bits .f32 = 32 ∨ (Rect.block (s := S2048x128) S2048x128.size (cc2_transform_3 i) (hinb2_3 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S2048x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S2048x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x400000 : Shape := ⟨2, ![1, 400000]⟩
abbrev S400000 : Shape := ⟨1, ![400000]⟩
abbrev S100000x256 : Shape := ⟨2, ![100000, 256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S2048 : Shape := ⟨1, ![2048]⟩
abbrev S100000x1 : Shape := ⟨2, ![100000, 1]⟩
abbrev S2048x256 : Shape := ⟨2, ![2048, 256]⟩
abbrev S2048x1 : Shape := ⟨2, ![2048, 1]⟩
abbrev S2048x128 : Shape := ⟨2, ![2048, 128]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S1x400000, .i32⟩
  | 10 => ⟨S400000, .i32⟩
  | 11 => ⟨S1x400000, .i32⟩
  | 12 => ⟨S400000, .i32⟩
  | 13 => ⟨S100000x256, .f32⟩
  | 14 => ⟨S100000, .i32⟩
  | 15 => ⟨S500000, .i32⟩
  | 16 => ⟨S500000, .i32⟩
  | 17 => ⟨S_, .f32⟩
  | 18 => ⟨S500000, .f32⟩
  | 19 => ⟨S_, .f32⟩
  | 20 => ⟨S100000, .f32⟩
  | 21 => ⟨S500000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000, .f32⟩
  | 49 => ⟨S500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .f32⟩
  | 59 => ⟨S500000x1, .f32⟩
  | 60 => ⟨S500000x256, .f32⟩
  | 61 => ⟨S500000x256, .f32⟩
  | 62 => ⟨S_, .f32⟩
  | 63 => ⟨S100000x256, .f32⟩
  | 64 => ⟨S500000x1, .i32⟩
  | 65 => ⟨S100000x256, .f32⟩
  | 66 => ⟨S1x256, .f32⟩
  | 67 => ⟨S100000x256, .f32⟩
  | 68 => ⟨S100000x256, .f32⟩
  | 69 => ⟨S_, .f32⟩
  | 70 => ⟨S100000x256, .f32⟩
  | 71 => ⟨S100000x256, .f32⟩
  | 72 => ⟨S100000x256, .f32⟩
  | 73 => ⟨S100000, .i32⟩
  | 74 => ⟨S500000, .i32⟩
  | 75 => ⟨S500000, .i32⟩
  | 76 => ⟨S_, .f32⟩
  | 77 => ⟨S500000, .f32⟩
  | 78 => ⟨S_, .f32⟩
  | 79 => ⟨S100000, .f32⟩
  | 80 => ⟨S500000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000, .f32⟩
  | 108 => ⟨S500000, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x256, .f32⟩
  | 118 => ⟨S500000x1, .f32⟩
  | 119 => ⟨S500000x256, .f32⟩
  | 120 => ⟨S500000x256, .f32⟩
  | 121 => ⟨S_, .f32⟩
  | 122 => ⟨S100000x256, .f32⟩
  | 123 => ⟨S500000x1, .i32⟩
  | 124 => ⟨S100000x256, .f32⟩
  | 125 => ⟨S1x256, .f32⟩
  | 126 => ⟨S100000x256, .f32⟩
  | 127 => ⟨S100000x256, .f32⟩
  | _ => ⟨S100000x128, .f32⟩

abbrev hbmTy0_1 (i : Nat) : BufTy := match i % 128 with
  | 0 => ⟨S_, .f32⟩
  | 1 => ⟨S100000x256, .f32⟩
  | 2 => ⟨S100000x256, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048x256, .f32⟩
  | 11 => ⟨S100000x1, .i32⟩
  | 12 => ⟨S2048x256, .f32⟩
  | 13 => ⟨S_, .f32⟩
  | 14 => ⟨S2048, .f32⟩
  | 15 => ⟨S2048, .f32⟩
  | 16 => ⟨S2048x1, .f32⟩
  | 17 => ⟨S2048x256, .f32⟩
  | 18 => ⟨S2048x256, .f32⟩
  | 19 => ⟨S2048x128, .f32⟩
  | 20 => ⟨S1x128, .f32⟩
  | 21 => ⟨S2048x128, .f32⟩
  | 22 => ⟨S2048x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S2048 : S_.BroadcastsInDim S2048 (![] : Fin 0 → Fin S2048.rank)
  bcast_S100000_S100000x1_0 : S100000.BroadcastsInDim S100000x1 (![0] : Fin 1 → Fin S100000x1.rank)
  bcast_S_S2048x256 : S_.BroadcastsInDim S2048x256 (![] : Fin 0 → Fin S2048x256.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  dot_S100000x128_S128x256_S100000x256_1_0_0_1_n_n_wf : DotDims.WF S100000x128 S128x256 S100000x256 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  scatter_S2048_S100000x1_S100000_n_0_0_1_wf : ScatterDims.WF S2048 S100000x1 S100000 [] [0] [0] 1
  scatter_S2048x256_S100000x1_S100000x256_1_0_0_1_wf : ScatterDims.WF S2048x256 S100000x1 S100000x256 [1] [0] [0] 1
  dot_S2048x256_S256x128_S2048x128_1_0_0_1_n_n_wf : DotDims.WF S2048x256 S256x128 S2048x128 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

class Facts : Prop extends Facts₀ where

variable [Facts]
-- ==== Proof.Spec.lean ====
/-
  The function both programs compute, written once over the reference's shapes and dimension records: a two-layer
  graph convolution with self loops and symmetric degree normalisation, a mean pool per graph, and a final linear map.

  With `s`, `d` the edge list's two rows each followed by the self loops `0 … n-1`:
    deg[i]  = number of `j` with `d[j] = i`            (a scatter-add of ones)
    dinv[i] = deg[i]^(-1/2) where `deg[i] > 0`, else 0
    norm[j] = dinv[s[j]] · dinv[d[j]]
    propagate(L)[i, :] = max(Σ_{j : d[j] = i} L[s[j], :] · norm[j] + b, 0)
    pool(H)[g, :]      = (Σ_{i : batch[i] = g} H[i, :]) / max(#{i : batch[i] = g}, 1)
    result = pool(propagate(propagate(x·W1)·W2))·Wfc + bfc.
  Every operation is the host's (gather, scatter-add, `dot_general`); the definitions below only name the pieces.
-/
import proofs.«138710_j45509473468603_1_alg».proof.ReferenceIdeal

noncomputable section

namespace Cert.Gcn

open Cert.ReferenceIdeal Cert.ReferenceIdeal.Facts₀ Idealize.ShloMosaic

variable {F : FTy → Type} [FloatOps F] [Cert.ReferenceIdeal.Facts₀]

/-- Row `0` of the edge list (the sources), then the self loops `0 … n-1`. -/
def src (e : (⟨S2x400000, .i32⟩ : BufTy).Contents (Elt F)) : (⟨S500000, .i32⟩ : BufTy).Contents (Elt F) :=
  concatenate S500000 0 [⟨S400000, (shapeCast S400000 (extractStridedSlice S1x400000 ![0, 0] e slices_S2x400000_S1x400000_0_0) shapeCasts_S1x400000_S400000)⟩, ⟨S100000, (iotaInDim S100000 32 0)⟩] concatenates_S400000_S100000_S500000_d0

/-- Row `1` of the edge list (the destinations), then the self loops `0 … n-1`. -/
def dst (e : (⟨S2x400000, .i32⟩ : BufTy).Contents (Elt F)) : (⟨S500000, .i32⟩ : BufTy).Contents (Elt F) :=
  concatenate S500000 0 [⟨S400000, (shapeCast S400000 (extractStridedSlice S1x400000 ![1, 0] e slices_S2x400000_S1x400000_1_0) shapeCasts_S1x400000_S400000)⟩, ⟨S100000, (iotaInDim S100000 32 0)⟩] concatenates_S400000_S100000_S500000_d0

/-- A column of gather start indices from a list of node numbers: a negative number counts from the end (`v + n`). -/
def startIdx (v : (⟨S500000, .i32⟩ : BufTy).Contents (Elt F)) : (⟨S500000x1, .i32⟩ : BufTy).Contents (Elt F) :=
  broadcastInDim S500000x1 ![0] bcast_S500000_S500000x1_0 (select (cmpi .slt v (broadcastInDim S500000 ![] bcast_S_S500000 (constantI S_ 32 0#32))) (addi v (broadcastInDim S500000 ![] bcast_S_S500000 (constantI S_ 32 100000#32))) v)

/-- The in-degree of every node: ones scattered and added at the destinations. -/
def degree (d : (⟨S500000, .i32⟩ : BufTy).Contents (Elt F)) : FVec F S100000 .f32 :=
  Host.scatterAdd scatter_S100000_S500000x1_S500000_n_0_0_1 (broadcastInDim S100000 ![] bcast_S_S100000 (constant S_ .f32 0x00000000#32)) (broadcastInDim S500000x1 ![0] bcast_S500000_S500000x1_0 d) (broadcastInDim S500000 ![] bcast_S_S500000 (constant S_ .f32 0x3F800000#32))

/-- `deg^(-1/2)` where the degree is positive, else `0`. -/
def dinv (d : (⟨S500000, .i32⟩ : BufTy).Contents (Elt F)) : FVec F S100000 .f32 :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The weight of every edge slot: `dinv` at its source times `dinv` at its destination. -/
def norm (s d : (⟨S500000, .i32⟩ : BufTy).Contents (Elt F)) : FVec F S500000 .f32 :=
  mulf (Host.gather gather_S100000_S500000x1_S500000_n_0_n_n_0_1_1 (dinv d) (startIdx s)) (Host.gather gather_S100000_S500000x1_S500000_n_0_n_n_0_1_1 (dinv d) (startIdx d))

/-- One propagation of already-projected rows `lin`: gather the source rows, scale by the edge weights, add them up at
    the destinations, add the bias, and clamp below at zero. -/
def propagate (lin : FVec F S100000x256 .f32) (s d : (⟨S500000, .i32⟩ : BufTy).Contents (Elt F)) (b : FVec F S256 .f32) : FVec F S100000x256 .f32 :=
  maximumf (addf (Host.scatterAdd scatter_S100000x256_S500000x1_S500000x256_1_0_0_1 (broadcastInDim S100000x256 ![] bcast_S_S100000x256 (constant S_ .f32 0x00000000#32)) (broadcastInDim S500000x1 ![0] bcast_S500000_S500000x1_0 d) (mulf (Host.gather gather_S100000x256_S500000x1_S500000x256_1_0_n_n_0_1_1256 lin (startIdx s)) (broadcastInDim S500000x256 ![0, 1] bcast_S500000x1_S500000x256_0_1 (broadcastInDim S500000x1 ![0] bcast_S500000_S500000x1_0 (norm s d))))) (broadcastInDim S100000x256 ![0, 1] bcast_S1x256_S100000x256_0_1 (broadcastInDim S1x256 ![1] bcast_S256_S1x256_1 b))) (broadcastInDim S100000x256 ![] bcast_S_S100000x256 (constant S_ .f32 0x00000000#32))

/-- The mean of the rows of each graph: the rows summed per graph id, over the number of rows with that id (at least one). -/
def meanPool (h : FVec F S100000x256 .f32) (batch : (⟨S100000, .i32⟩ : BufTy).Contents (Elt F)) : FVec F S2048x256 .f32 :=
  Host.divf (Host.scatterAdd scatter_S2048x256_S100000x1_S100000x256_1_0_0_1 (broadcastInDim S2048x256 ![] bcast_S_S2048x256 (constant S_ .f32 0x00000000#32)) (broadcastInDim S100000x1 ![0] bcast_S100000_S100000x1_0 batch) h) (broadcastInDim S2048x256 ![0, 1] bcast_S2048x1_S2048x256_0_1 (broadcastInDim S2048x1 ![0] bcast_S2048_S2048x1_0 (maximumf (Host.scatterAdd scatter_S2048_S100000x1_S100000_n_0_0_1 (broadcastInDim S2048 ![] bcast_S_S2048 (constant S_ .f32 0x00000000#32)) (broadcastInDim S100000x1 ![0] bcast_S100000_S100000x1_0 batch) (broadcastInDim S100000 ![] bcast_S_S100000 (constant S_ .f32 0x3F800000#32))) (broadcastInDim S2048 ![] bcast_S_S2048 (constant S_ .f32 0x3F800000#32)))))

/-- A bias row added to every row of a `[2048, 128]` table. -/
def biasRows (b : FVec F S128 .f32) : FVec F S2048x128 .f32 :=
  broadcastInDim S2048x128 ![0, 1] bcast_S1x128_S2048x128_0_1 (broadcastInDim S1x128 ![1] bcast_S128_S1x128_1 b)

/-- The hidden rows after the first layer. -/
def layer1 (x : FVec F S100000x128 .f32) (e : (⟨S2x400000, .i32⟩ : BufTy).Contents (Elt F)) (W1 : FVec F S128x256 .f32) (b1 : FVec F S256 .f32) : FVec F S100000x256 .f32 :=
  propagate (Host.dotGeneral dot_S100000x128_S128x256_S100000x256_1_0_0_1_n_n none x W1) (src e) (dst e) b1

/-- The hidden rows after the second layer. -/
def layer2 (h : FVec F S100000x256 .f32) (e : (⟨S2x400000, .i32⟩ : BufTy).Contents (Elt F)) (W2 : FVec F S256x256 .f32) (b2 : FVec F S256 .f32) : FVec F S100000x256 .f32 :=
  propagate (Host.dotGeneral dot_S100000x256_S256x256_S100000x256_1_0_0_1_n_n none h W2) (src e) (dst e) b2

/-- The whole network. -/
def gcn (x : FVec F S100000x128 .f32) (e : (⟨S2x400000, .i32⟩ : BufTy).Contents (Elt F)) (batch : (⟨S100000, .i32⟩ : BufTy).Contents (Elt F))
    (W1 : FVec F S128x256 .f32) (b1 : FVec F S256 .f32) (W2 : FVec F S256x256 .f32) (b2 : FVec F S256 .f32)
    (Wfc : FVec F S256x128 .f32) (bfc : FVec F S128 .f32) : FVec F S2048x128 .f32 :=
  addf (Host.dotGeneral dot_S2048x256_S256x128_S2048x128_1_0_0_1_n_n none (meanPool (layer2 (layer1 x e W1 b1) e W2 b2) batch) Wfc) (biasRows bfc)

end Cert.Gcn

end
-- ==== Proof.RefValue.lean ====
/-
  The reference's result is the network of Proof/Spec.lean. The reference's run states its result as one composed
  term of the argument arrays; that term is `Cert.Gcn.gcn` of the arguments once the definitions of the pieces are
  opened — the edge weights, which the reference computes once per layer, are one function of the edge list.
-/
import proofs.«138710_j45509473468603_1_alg».proof.Proof.RefRun
import proofs.«138710_j45509473468603_1_alg».proof.Proof.Spec

set_option maxRecDepth 8192

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable {F : FTy → Type} [FloatOps F]

/-- The run's composed term is the network applied to the argument arrays. -/
theorem res_eq (m : (ℓ : Loc nD τ sig) → Buf (Elt F) ℓ) (c : Dev nD) :
    res_main_v107 m c = Cert.Gcn.gcn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold res_main_v107 Cert.Gcn.gcn Cert.Gcn.layer2 Cert.Gcn.layer1 Cert.Gcn.meanPool Cert.Gcn.biasRows Cert.Gcn.propagate
    Cert.Gcn.norm Cert.Gcn.dinv Cert.Gcn.degree Cert.Gcn.startIdx Cert.Gcn.src Cert.Gcn.dst
  rfl

end Cert.ReferenceIdeal.RefValue

end
-- ==== Proof.KernelRun.lean ====
/-
  The idealized kernel's run with its RESULT named. Every weakly fair execution of the program — three pipelined
  regions among stretches of host operations — terminates without a fault, and at the end the result buffer holds what
  the last boundary of the fold through the program holds there (`Gen.W11`: the contents after the third region's
  write-backs), the argument arrays what they held at launch. The frame theorem states the same run with only the
  arguments in its post; this one reads one more buffer off the same final thread state.
-/
import proofs.«138710_j45509473468603_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eleven segments, the last thread state read against the final memory: the result buffer
    at the last boundary's contents, each argument at its launch contents. -/
theorem run_result : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Result

end
-- ==== Proof.HostA.lean ====
/-
  The host operations before the first region, read back: the edge list's two rows with the self loops appended, and
  the edge weights, as the kernel's program computes them once — the functions of Proof/Spec.lean of the edge list.
  The first region does not write them, so its exit contents hold them too.
-/
import proofs.«138710_j45509473468603_1_alg».proof.Proof.Gen.KernelIdeal.Frame
import proofs.«138710_j45509473468603_1_alg».proof.Proof.Gen.ReferenceIdeal
import proofs.«138710_j45509473468603_1_alg».proof.Proof.Spec
import Idealize.ShloMosaic.Lib.StableHlo.Run
import Idealize.ShloMosaic.PureOps.Ideal

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Open the host stretches of a boundary's contents and evaluate the fold at one buffer; the operations of an inlined
    function carry their operands' types, and the transports along those (reflexive) type equations are removed. -/
macro "host_read" : tactic =>
  `(tactic| (dsimp only [W1, W2, W3, W5, W6, W8, W9, W10, hostOps0, hostOps0_1, hostOps0_2, hostOps1, hostOps1_1, hostOps2, hostOps2_1, hostOps2_2]
             after_results_simp <;> (try simp only [TRef.toBuf, TRef.ofBuf, cast_eq])))

/-- The sources with the self loops, at the first region's entry. -/
theorem src3 : W3 m ρ c (Proc.devRef .tc main_v5) = Cert.Gcn.src (F := Ideal) (m ((c : Thread nD τ).loc main_arg1)) := by
  host_read <;> rfl

/-- The destinations with the self loops, at the first region's entry. -/
theorem dst3 : W3 m ρ c (Proc.devRef .tc main_v6) = Cert.Gcn.dst (F := Ideal) (m ((c : Thread nD τ).loc main_arg1)) := by
  host_read <;> rfl

set_option maxHeartbeats 2000000 in
/-- The edge weights, at the first region's entry: `dinv` at the source times `dinv` at the destination. -/
theorem norm3 : W3 m ρ c (Proc.devRef .tc main_v29) = Cert.Gcn.norm (F := Ideal) (Cert.Gcn.src (F := Ideal) (m ((c : Thread nD τ).loc main_arg1))) (Cert.Gcn.dst (F := Ideal) (m ((c : Thread nD τ).loc main_arg1))) := by
  host_read <;> rfl

/-- Argument 0 is as launched at the first region's entry: no host operation writes it. -/
theorem arg0_3 : W3 m ρ c (Proc.devRef .tc main_arg0) = m ((c : Thread nD τ).loc main_arg0) := by
  host_read <;> rfl
/-- Argument 2 is as launched at the first region's entry: no host operation writes it. -/
theorem arg2_3 : W3 m ρ c (Proc.devRef .tc main_arg2) = m ((c : Thread nD τ).loc main_arg2) := by
  host_read <;> rfl
/-- Argument 3 is as launched at the first region's entry: no host operation writes it. -/
theorem arg3_3 : W3 m ρ c (Proc.devRef .tc main_arg3) = m ((c : Thread nD τ).loc main_arg3) := by
  host_read <;> rfl
/-- Argument 4 is as launched at the first region's entry: no host operation writes it. -/
theorem arg4_3 : W3 m ρ c (Proc.devRef .tc main_arg4) = m ((c : Thread nD τ).loc main_arg4) := by
  host_read <;> rfl
/-- Argument 5 is as launched at the first region's entry: no host operation writes it. -/
theorem arg5_3 : W3 m ρ c (Proc.devRef .tc main_arg5) = m ((c : Thread nD τ).loc main_arg5) := by
  host_read <;> rfl
/-- Argument 6 is as launched at the first region's entry: no host operation writes it. -/
theorem arg6_3 : W3 m ρ c (Proc.devRef .tc main_arg6) = m ((c : Thread nD τ).loc main_arg6) := by
  host_read <;> rfl
/-- Argument 7 is as launched at the first region's entry: no host operation writes it. -/
theorem arg7_3 : W3 m ρ c (Proc.devRef .tc main_arg7) = m ((c : Thread nD τ).loc main_arg7) := by
  host_read <;> rfl
/-- Argument 8 is as launched at the first region's entry: no host operation writes it. -/
theorem arg8_3 : W3 m ρ c (Proc.devRef .tc main_arg8) = m ((c : Thread nD τ).loc main_arg8) := by
  host_read <;> rfl

/-! The first region writes only its result array: every other buffer leaves it as it entered. -/

theorem src4 : W4 m ρ c (Proc.devRef .tc main_v5) = Cert.Gcn.src (F := Ideal) (m ((c : Thread nD τ).loc main_arg1)) :=
  (W4_of_ne m ρ c main_v5 (by decide)).trans (src3 m ρ c)
theorem dst4 : W4 m ρ c (Proc.devRef .tc main_v6) = Cert.Gcn.dst (F := Ideal) (m ((c : Thread nD τ).loc main_arg1)) :=
  (W4_of_ne m ρ c main_v6 (by decide)).trans (dst3 m ρ c)
theorem norm4 : W4 m ρ c (Proc.devRef .tc main_v29) = Cert.Gcn.norm (F := Ideal) (Cert.Gcn.src (F := Ideal) (m ((c : Thread nD τ).loc main_arg1))) (Cert.Gcn.dst (F := Ideal) (m ((c : Thread nD τ).loc main_arg1))) :=
  (W4_of_ne m ρ c main_v29 (by decide)).trans (norm3 m ρ c)
theorem arg2_4 : W4 m ρ c (Proc.devRef .tc main_arg2) = m ((c : Thread nD τ).loc main_arg2) :=
  (W4_of_ne m ρ c main_arg2 (by decide)).trans (arg2_3 m ρ c)
theorem arg4_4 : W4 m ρ c (Proc.devRef .tc main_arg4) = m ((c : Thread nD τ).loc main_arg4) :=
  (W4_of_ne m ρ c main_arg4 (by decide)).trans (arg4_3 m ρ c)
theorem arg5_4 : W4 m ρ c (Proc.devRef .tc main_arg5) = m ((c : Thread nD τ).loc main_arg5) :=
  (W4_of_ne m ρ c main_arg5 (by decide)).trans (arg5_3 m ρ c)
theorem arg6_4 : W4 m ρ c (Proc.devRef .tc main_arg6) = m ((c : Thread nD τ).loc main_arg6) :=
  (W4_of_ne m ρ c main_arg6 (by decide)).trans (arg6_3 m ρ c)
theorem arg7_4 : W4 m ρ c (Proc.devRef .tc main_arg7) = m ((c : Thread nD τ).loc main_arg7) :=
  (W4_of_ne m ρ c main_arg7 (by decide)).trans (arg7_3 m ρ c)
theorem arg8_4 : W4 m ρ c (Proc.devRef .tc main_arg8) = m ((c : Thread nD τ).loc main_arg8) :=
  (W4_of_ne m ρ c main_arg8 (by decide)).trans (arg8_3 m ρ c)

end Cert.KernelIdeal.Bridge

end
-- ==== Proof.LibPlainDot.lean ====
/-
  A plain two-dimensional matrix product read at an index, at the ideal values.

  For a dot of an `[M, K]` table with a `[K, N]` table that contracts the left operand's last axis with the right
  operand's first and has no batch axis, the element `(p, q)` of the product is `Σ_{k < K} l[p, k] · r[k, q]`:
  for the host's `dot_general`, and for a kernel's `tpu.matmul` into the zero accumulator. The record's contraction
  index (a one-axis multi-index) is re-indexed over `Fin K`. The hypotheses are the facts about the dimension record
  that a literal record gives by computation: the contraction shape is one axis of extent `K`; the contracted axes
  are `1` on the left and `0` on the right; the left operand's row and the right operand's column are the result's.
-/
import Idealize.ShloMosaic.PureOps.Ideal.Laws
import Idealize.ShloMosaic.Lib.ValueIdx

noncomputable section

namespace Cert.PlainDot

open Idealize.ShloMosaic Idealize.ShloMosaic.ValueIdx

variable {M K N : Nat} (d : DotDims ⟨2, ![M, K]⟩ ⟨2, ![K, N]⟩ ⟨2, ![M, N]⟩)

/-- The sum over the record's contraction index is the sum over `k < K` of the row's entry times the column's. -/
theorem sum_contr (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- The host's `dot_general` at `(p, q)`. -/
theorem dotGeneral_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_contr d hr hs hlc hrc hl0 hr1 l r p q)

/-- A kernel's `tpu.matmul` into the zero splat at `(p, q)`. -/
theorem matmul_zero_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (sum_contr d hr hs hlc hrc hl0 hr1 l r p q)

end Cert.PlainDot

end
-- ==== Proof.Region0.lean ====
/-
  Region 0 of the idealized kernel is a matrix product, whole. The region walks the rows of its left operand in
  20 blocks of 5000 rows; at each block its body rounds both operands (the identity at the ideal values) and stores the
  block's `tpu.matmul` into the zero accumulator. Row `r` of the result is therefore row `r mod 5000` of block `r / 5000`,
  `Σ_k X[r, k] · W[k, q]` — the host's `dot_general` of the two arrays as the region finds them, at every index, and the
  20 blocks tile the result array.
-/
import proofs.«138710_j45509473468603_1_alg».proof.Proof.Gen.KernelIdeal.Frame
import proofs.«138710_j45509473468603_1_alg».proof.Proof.Gen.ReferenceIdeal
import proofs.«138710_j45509473468603_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The block's dot: `[5000, 128] × [128, 256]`. -/
abbrev dK := Cert.KernelIdeal.dot_S5000x128_S128x256_S5000x256_1_0_0_1_n_n
/-- The whole dot: `[100000, 128] × [128, 256]`. -/
abbrev dR := Cert.ReferenceIdeal.dot_S100000x128_S128x256_S100000x256_1_0_0_1_n_n

theorem dK_l0 : ∀ j k, (dK.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dK.lhsBatch by decide), dif_pos (show (⟨0, Nat.zero_lt_two⟩ : Fin 2) ∈ dK.lhsNonContracting by decide)]
  rfl
theorem dK_r1 : ∀ j k, (dK.rhsIdx j k ⟨1, Nat.one_lt_two⟩).val = (j ⟨1, Nat.one_lt_two⟩).val := fun j k => by
  unfold DotDims.rhsIdx
  rw [dif_neg (show ¬(⟨1, Nat.one_lt_two⟩ : Fin 2) ∈ dK.rhsBatch by decide), dif_pos (show (⟨1, Nat.one_lt_two⟩ : Fin 2) ∈ dK.rhsNonContracting by decide)]
  rfl
theorem dR_l0 : ∀ j k, (dR.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dR.lhsBatch by decide), dif_pos (show (⟨0, Nat.zero_lt_two⟩ : Fin 2) ∈ dR.lhsNonContracting by decide)]
  rfl
theorem dR_r1 : ∀ j k, (dR.rhsIdx j k ⟨1, Nat.one_lt_two⟩).val = (j ⟨1, Nat.one_lt_two⟩).val := fun j k => by
  unfold DotDims.rhsIdx
  rw [dif_neg (show ¬(⟨1, Nat.one_lt_two⟩ : Fin 2) ∈ dR.rhsBatch by decide), dif_pos (show (⟨1, Nat.one_lt_two⟩ : Fin 2) ∈ dR.rhsNonContracting by decide)]
  rfl

/-- The whole product of the two arrays. -/
def whole (X : (⟨2, ![100000, 128]⟩ : Shape).Idx → EReal) (W : (⟨2, ![128, 256]⟩ : Shape).Idx → EReal) : (⟨2, ![100000, 256]⟩ : Shape).Idx → EReal :=
  Host.dotGeneral (F := Ideal) (φ₁ := .f32) (φ₂ := .f32) dR none X W

/-- The body's payload on block `b`: when the loaded left block holds rows `5000·b …` of `X` and the loaded right block all
    of `W`, its element `(p, q)` is the whole product's element `(5000·b + p, q)`. -/
theorem block_rows (X : (⟨2, ![100000, 128]⟩ : Shape).Idx → EReal) (W : (⟨2, ![128, 256]⟩ : Shape).Idx → EReal)
    (x0 : FVec Ideal S5000x128 .f32) (x1 : FVec Ideal S128x256 .f32) (b : Nat) (hb : b < 20)
    (hx : ∀ (p : Fin 5000) (k : Fin 128), x0 (ix2 p k) = X (ix2 ⟨b * 5000 + p.val, by omega⟩ k))
    (hw : ∀ (k : Fin 128) (q : Fin 256), x1 (ix2 k q) = W (ix2 k q))
    (p : Fin 5000) (q : Fin 256) :
    k0_pay1 (F := Ideal) x0 x1 (ix2 p q) = whole X W (ix2 ⟨b * 5000 + p.val, by omega⟩ q) := by
  unfold k0_pay1 whole
  refine (Cert.PlainDot.matmul_zero_apply dK rfl rfl rfl rfl dK_l0 dK_r1 none _ _ p q).trans ?_
  refine Eq.trans ?_ (Cert.PlainDot.dotGeneral_apply dR rfl rfl rfl rfl dR_l0 dR_r1 none HostSchedule.single X W ⟨b * 5000 + p.val, by omega⟩ q).symm
  refine Finset.sum_congr rfl fun k _ => ?_
  show x0 (ix2 p k) * x1 (ix2 k q) = _
  rw [hx p k, hw k q]

theorem hz : (![0, 0] : Fin 2 → Nat) = fun _ => 0 := funext fun a => by fin_cases a <;> rfl

/-- The printed index maps over the grid: the left operand's block and the output's move together down the rows, the
    right operand's block stays, and the output's block index is below 20. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) < 20 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What point `t` writes back is block `t` of the whole product of the two arrays as the region finds them. -/
theorem flushed_eq (c : Dev nD) (t : Fin cfg0.N) :
    (dat0 (F := Ideal) V c).flushed 2 t
      = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k0_pay1 (iblk0 V c 0 t) (iblk0 V c 1 t) (ix2 p q) = whole (V c main_arg0) (V c main_arg3) (((cfg0.win 2).blk t).view.emb (ix2 p q))
  have hemb : ((cfg0.win 2).blk t).view.emb (ix2 p q) = ix2 ⟨win0_2.index t (0 : Fin 2) * 5000 + p.val, by omega⟩ q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  rw [hemb]
  refine block_rows (V c main_arg0) (V c main_arg3) (iblk0 V c 0 t) (iblk0 V c 1 t) (win0_2.index t (0 : Fin 2)) e5 (fun p k => ?_) (fun k q => ?_) p q
  · show V c main_arg0 (((cfg0.win 0).blk t).view.emb (ix2 p k)) = V c main_arg0 (ix2 ⟨win0_2.index t (0 : Fin 2) * 5000 + p.val, by omega⟩ k)
    refine congrArg (V c main_arg0) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega

/-- An index of the result array is in point `t`'s block iff each coordinate is in the block's range on its axis. -/
theorem mem_blk (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- The blocks tile the result array: row `r` is in the block of point `r / 5000`. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array after the region: the whole product of the two arrays as the region finds them. -/
theorem array_eq (c : Dev nD) :
    (dat0 (F := Ideal) V c).arrAt 2 cfg0.N = whole (V c main_arg0) (V c main_arg3) :=
  (dat0 (F := Ideal) V c).arrAt_eq_of_cover 2 (whole (V c main_arg0) (V c main_arg3)) (fun t _ => flushed_eq V c t) cover

end Cert.KernelIdeal.Region0

end
-- ==== Proof.Region1.lean ====
/-
  Region 1 of the idealized kernel is a matrix product, whole. The region walks the rows of its left operand in
  20 blocks of 5000 rows; at each block its body rounds both operands (the identity at the ideal values) and stores the
  block's `tpu.matmul` into the zero accumulator. Row `r` of the result is therefore row `r mod 5000` of block `r / 5000`,
  `Σ_k X[r, k] · W[k, q]` — the host's `dot_general` of the two arrays as the region finds them, at every index, and the
  20 blocks tile the result array.
-/
import proofs.«138710_j45509473468603_1_alg».proof.Proof.Gen.KernelIdeal.Frame
import proofs.«138710_j45509473468603_1_alg».proof.Proof.Gen.ReferenceIdeal
import proofs.«138710_j45509473468603_1_alg».proof.Proof.LibPlainDot
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The block's dot: `[5000, 256] × [256, 256]`. -/
abbrev dK := Cert.KernelIdeal.dot_S5000x256_S256x256_S5000x256_1_0_0_1_n_n
/-- The whole dot: `[100000, 256] × [256, 256]`. -/
abbrev dR := Cert.ReferenceIdeal.dot_S100000x256_S256x256_S100000x256_1_0_0_1_n_n

theorem dK_l0 : ∀ j k, (dK.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dK.lhsBatch by decide), dif_pos (show (⟨0, Nat.zero_lt_two⟩ : Fin 2) ∈ dK.lhsNonContracting by decide)]
  rfl
theorem dK_r1 : ∀ j k, (dK.rhsIdx j k ⟨1, Nat.one_lt_two⟩).val = (j ⟨1, Nat.one_lt_two⟩).val := fun j k => by
  unfold DotDims.rhsIdx
  rw [dif_neg (show ¬(⟨1, Nat.one_lt_two⟩ : Fin 2) ∈ dK.rhsBatch by decide), dif_pos (show (⟨1, Nat.one_lt_two⟩ : Fin 2) ∈ dK.rhsNonContracting by decide)]
  rfl
theorem dR_l0 : ∀ j k, (dR.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dR.lhsBatch by decide), dif_pos (show (⟨0, Nat.zero_lt_two⟩ : Fin 2) ∈ dR.lhsNonContracting by decide)]
  rfl
theorem dR_r1 : ∀ j k, (dR.rhsIdx j k ⟨1, Nat.one_lt_two⟩).val = (j ⟨1, Nat.one_lt_two⟩).val := fun j k => by
  unfold DotDims.rhsIdx
  rw [dif_neg (show ¬(⟨1, Nat.one_lt_two⟩ : Fin 2) ∈ dR.rhsBatch by decide), dif_pos (show (⟨1, Nat.one_lt_two⟩ : Fin 2) ∈ dR.rhsNonContracting by decide)]
  rfl

/-- The whole product of the two arrays. -/
def whole (X : (⟨2, ![100000, 256]⟩ : Shape).Idx → EReal) (W : (⟨2, ![256, 256]⟩ : Shape).Idx → EReal) : (⟨2, ![100000, 256]⟩ : Shape).Idx → EReal :=
  Host.dotGeneral (F := Ideal) (φ₁ := .f32) (φ₂ := .f32) dR none X W

/-- The body's payload on block `b`: when the loaded left block holds rows `5000·b …` of `X` and the loaded right block all
    of `W`, its element `(p, q)` is the whole product's element `(5000·b + p, q)`. -/
theorem block_rows (X : (⟨2, ![100000, 256]⟩ : Shape).Idx → EReal) (W : (⟨2, ![256, 256]⟩ : Shape).Idx → EReal)
    (x0 : FVec Ideal S5000x256 .f32) (x1 : FVec Ideal S256x256 .f32) (b : Nat) (hb : b < 20)
    (hx : ∀ (p : Fin 5000) (k : Fin 256), x0 (ix2 p k) = X (ix2 ⟨b * 5000 + p.val, by omega⟩ k))
    (hw : ∀ (k : Fin 256) (q : Fin 256), x1 (ix2 k q) = W (ix2 k q))
    (p : Fin 5000) (q : Fin 256) :
    k1_pay1 (F := Ideal) x0 x1 (ix2 p q) = whole X W (ix2 ⟨b * 5000 + p.val, by omega⟩ q) := by
  unfold k1_pay1 whole
  refine (Cert.PlainDot.matmul_zero_apply dK rfl rfl rfl rfl dK_l0 dK_r1 none _ _ p q).trans ?_
  refine Eq.trans ?_ (Cert.PlainDot.dotGeneral_apply dR rfl rfl rfl rfl dR_l0 dR_r1 none HostSchedule.single X W ⟨b * 5000 + p.val, by omega⟩ q).symm
  refine Finset.sum_congr rfl fun k _ => ?_
  show shapeCast S5000x256 x0 _ (ix2 p k) * x1 (ix2 k q) = _
  rw [shapeCast_self]
  rw [hx p k, hw k q]

theorem hz : (![0, 0] : Fin 2 → Nat) = fun _ => 0 := funext fun a => by fin_cases a <;> rfl

/-- The printed index maps over the grid: the left operand's block and the output's move together down the rows, the
    right operand's block stays, and the output's block index is below 20. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) < 20 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- What point `t` writes back is block `t` of the whole product of the two arrays as the region finds them. -/
theorem flushed_eq (c : Dev nD) (t : Fin cfg1.N) :
    (dat1 (F := Ideal) V c).flushed 2 t
      = ((cfg1.win 2).blk t).view.read (Elt Ideal) (whole (V c main_v47) (V c main_arg5)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k1_pay1 (iblk1 V c 0 t) (iblk1 V c 1 t) (ix2 p q) = whole (V c main_v47) (V c main_arg5) (((cfg1.win 2).blk t).view.emb (ix2 p q))
  have hemb : ((cfg1.win 2).blk t).view.emb (ix2 p q) = ix2 ⟨win1_2.index t (0 : Fin 2) * 5000 + p.val, by omega⟩ q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 256 + 1 * q.val = q.val; omega
  rw [hemb]
  refine block_rows (V c main_v47) (V c main_arg5) (iblk1 V c 0 t) (iblk1 V c 1 t) (win1_2.index t (0 : Fin 2)) e5 (fun p k => ?_) (fun k q => ?_) p q
  · show V c main_v47 (((cfg1.win 0).blk t).view.emb (ix2 p k)) = V c main_v47 (ix2 ⟨win1_2.index t (0 : Fin 2) * 5000 + p.val, by omega⟩ k)
    refine congrArg (V c main_v47) (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 256 + 1 * k.val = k.val; omega
  · show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega

/-- An index of the result array is in point `t`'s block iff each coordinate is in the block's range on its axis. -/
theorem mem_blk (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- The blocks tile the result array: row `r` is in the block of point `r / 5000`. -/
theorem cover (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The result array after the region: the whole product of the two arrays as the region finds them. -/
theorem array_eq (c : Dev nD) :
    (dat1 (F := Ideal) V c).arrAt 2 cfg1.N = whole (V c main_v47) (V c main_arg5) :=
  (dat1 (F := Ideal) V c).arrAt_eq_of_cover 2 (whole (V c main_v47) (V c main_arg5)) (fun t _ => flushed_eq V c t) cover

end Cert.KernelIdeal.Region1

end
-- ==== Proof.HostB.lean ====
/-
  The kernel's program between its regions, read back. The first region leaves `x·W1` (Proof/Region0.lean); the host
  operations after it gather, scale, scatter-add, add the bias and clamp — one propagation with the edge weights
  computed before the region —, which is the first hidden layer of Proof/Spec.lean; the second region leaves that
  layer's product with `W2` (Proof/Region1.lean). Nothing in between writes the edge lists, the edge weights or an
  argument.
-/
import proofs.«138710_j45509473468603_1_alg».proof.Proof.HostA
import proofs.«138710_j45509473468603_1_alg».proof.Proof.Region0
import proofs.«138710_j45509473468603_1_alg».proof.Proof.Region1

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first region's result: the product of the node features with the first weights. -/
theorem lin4 : W4 m ρ c (Proc.devRef .tc main_v30) = Region0.whole (m ((c : Thread nD τ).loc main_arg0)) (m ((c : Thread nD τ).loc main_arg3)) := by
  refine (W4_arr m ρ c 2).trans ((Region0.array_eq (V3 m ρ) c).trans ?_)
  show Region0.whole (W3 m ρ c (Proc.devRef .tc main_arg0)) (W3 m ρ c (Proc.devRef .tc main_arg3)) = _
  rw [arg0_3 m ρ c, arg3_3 m ρ c]

set_option maxHeartbeats 2000000 in
/-- The hidden rows after the first layer, at the second region's entry. -/
theorem hid6 : W6 m ρ c (Proc.devRef .tc main_v47) = (Cert.Gcn.layer1 (F := Ideal) (m ((c : Thread nD τ).loc main_arg0)) (m ((c : Thread nD τ).loc main_arg1)) (m ((c : Thread nD τ).loc main_arg3)) (m ((c : Thread nD τ).loc main_arg4))) := by
  host_read
  rw [lin4 m ρ c, src4 m ρ c, dst4 m ρ c, norm4 m ρ c, arg4_4 m ρ c]
  rfl

theorem src6 : W6 m ρ c (Proc.devRef .tc main_v5) = Cert.Gcn.src (F := Ideal) (m ((c : Thread nD τ).loc main_arg1)) := by
  host_read
  exact src4 m ρ c
theorem dst6 : W6 m ρ c (Proc.devRef .tc main_v6) = Cert.Gcn.dst (F := Ideal) (m ((c : Thread nD τ).loc main_arg1)) := by
  host_read
  exact dst4 m ρ c
theorem norm6 : W6 m ρ c (Proc.devRef .tc main_v29) = Cert.Gcn.norm (F := Ideal) (Cert.Gcn.src (F := Ideal) (m ((c : Thread nD τ).loc main_arg1))) (Cert.Gcn.dst (F := Ideal) (m ((c : Thread nD τ).loc main_arg1))) := by
  host_read
  exact norm4 m ρ c
theorem arg2_6 : W6 m ρ c (Proc.devRef .tc main_arg2) = m ((c : Thread nD τ).loc main_arg2) := by
  host_read
  exact arg2_4 m ρ c
theorem arg5_6 : W6 m ρ c (Proc.devRef .tc main_arg5) = m ((c : Thread nD τ).loc main_arg5) := by
  host_read
  exact arg5_4 m ρ c
theorem arg6_6 : W6 m ρ c (Proc.devRef .tc main_arg6) = m ((c : Thread nD τ).loc main_arg6) := by
  host_read
  exact arg6_4 m ρ c
theorem arg7_6 : W6 m ρ c (Proc.devRef .tc main_arg7) = m ((c : Thread nD τ).loc main_arg7) := by
  host_read
  exact arg7_4 m ρ c
theorem arg8_6 : W6 m ρ c (Proc.devRef .tc main_arg8) = m ((c : Thread nD τ).loc main_arg8) := by
  host_read
  exact arg8_4 m ρ c

/-- The second region's result: the product of the first hidden layer with the second weights. -/
theorem lin7 : W7 m ρ c (Proc.devRef .tc main_v48) = Region1.whole (Cert.Gcn.layer1 (F := Ideal) (m ((c : Thread nD τ).loc main_arg0)) (m ((c : Thread nD τ).loc main_arg1)) (m ((c : Thread nD τ).loc main_arg3)) (m ((c : Thread nD τ).loc main_arg4))) (m ((c : Thread nD τ).loc main_arg5)) := by
  refine (W7_arr m ρ c 2).trans ((Region1.array_eq (V6 m ρ) c).trans ?_)
  show Region1.whole (W6 m ρ c (Proc.devRef .tc main_v47)) (W6 m ρ c (Proc.devRef .tc main_arg5)) = _
  rw [hid6 m ρ c, arg5_6 m ρ c]

/-! The second region writes only its result array. -/

theorem src7 : W7 m ρ c (Proc.devRef .tc main_v5) = Cert.Gcn.src (F := Ideal) (m ((c : Thread nD τ).loc main_arg1)) :=
  (W7_of_ne m ρ c main_v5 (by decide)).trans (src6 m ρ c)
theorem dst7 : W7 m ρ c (Proc.devRef .tc main_v6) = Cert.Gcn.dst (F := Ideal) (m ((c : Thread nD τ).loc main_arg1)) :=
  (W7_of_ne m ρ c main_v6 (by decide)).trans (dst6 m ρ c)
theorem norm7 : W7 m ρ c (Proc.devRef .tc main_v29) = Cert.Gcn.norm (F := Ideal) (Cert.Gcn.src (F := Ideal) (m ((c : Thread nD τ).loc main_arg1))) (Cert.Gcn.dst (F := Ideal) (m ((c : Thread nD τ).loc main_arg1))) :=
  (W7_of_ne m ρ c main_v29 (by decide)).trans (norm6 m ρ c)
theorem arg2_7 : W7 m ρ c (Proc.devRef .tc main_arg2) = m ((c : Thread nD τ).loc main_arg2) :=
  (W7_of_ne m ρ c main_arg2 (by decide)).trans (arg2_6 m ρ c)
theorem arg6_7 : W7 m ρ c (Proc.devRef .tc main_arg6) = m ((c : Thread nD τ).loc main_arg6) :=
  (W7_of_ne m ρ c main_arg6 (by decide)).trans (arg6_6 m ρ c)
theorem arg7_7 : W7 m ρ c (Proc.devRef .tc main_arg7) = m ((c : Thread nD τ).loc main_arg7) :=
  (W7_of_ne m ρ c main_arg7 (by decide)).trans (arg7_6 m ρ c)
theorem arg8_7 : W7 m ρ c (Proc.devRef .tc main_arg8) = m ((c : Thread nD τ).loc main_arg8) :=
  (W7_of_ne m ρ c main_arg8 (by decide)).trans (arg8_6 m ρ c)

end Cert.KernelIdeal.Bridge

end
-- ==== Proof.Region2.lean ====
/-
  Region 2 of the idealized kernel is the final linear map, whole. Its grid has one point, whose blocks are the whole
  arrays: the body rounds the pooled rows and the weights (the identity at the ideal values), takes their `tpu.matmul`
  into the zero accumulator, adds the one bias row broadcast over the rows, and stores the result. So the result array
  is, at `(p, q)`, `Σ_k X[p, k] · W[k, q] + B[0, q]` — the host's `dot_general` of the two arrays plus the bias row.
-/
import proofs.«138710_j45509473468603_1_alg».proof.Proof.Gen.KernelIdeal.Frame
import proofs.«138710_j45509473468603_1_alg».proof.Proof.Gen.ReferenceIdeal
import proofs.«138710_j45509473468603_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- The body's dot: `[2048, 256] × [256, 128]`. -/
abbrev dK := Cert.KernelIdeal.dot_S2048x256_S256x128_S2048x128_1_0_0_1_n_n
/-- The reference's dot of the same shapes. -/
abbrev dR := Cert.ReferenceIdeal.dot_S2048x256_S256x128_S2048x128_1_0_0_1_n_n

theorem dK_l0 : ∀ j k, (dK.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dK.lhsBatch by decide), dif_pos (show (⟨0, Nat.zero_lt_two⟩ : Fin 2) ∈ dK.lhsNonContracting by decide)]
  rfl
theorem dK_r1 : ∀ j k, (dK.rhsIdx j k ⟨1, Nat.one_lt_two⟩).val = (j ⟨1, Nat.one_lt_two⟩).val := fun j k => by
  unfold DotDims.rhsIdx
  rw [dif_neg (show ¬(⟨1, Nat.one_lt_two⟩ : Fin 2) ∈ dK.rhsBatch by decide), dif_pos (show (⟨1, Nat.one_lt_two⟩ : Fin 2) ∈ dK.rhsNonContracting by decide)]
  rfl
theorem dR_l0 : ∀ j k, (dR.lhsIdx j k ⟨0, Nat.zero_lt_two⟩).val = (j ⟨0, Nat.zero_lt_two⟩).val := fun j k => by
  unfold DotDims.lhsIdx
  rw [dif_neg (show ¬(⟨0, Nat.zero_lt_two⟩ : Fin 2) ∈ dR.lhsBatch by decide), dif_pos (show (⟨0, Nat.zero_lt_two⟩ : Fin 2) ∈ dR.lhsNonContracting by decide)]
  rfl
theorem dR_r1 : ∀ j k, (dR.rhsIdx j k ⟨1, Nat.one_lt_two⟩).val = (j ⟨1, Nat.one_lt_two⟩).val := fun j k => by
  unfold DotDims.rhsIdx
  rw [dif_neg (show ¬(⟨1, Nat.one_lt_two⟩ : Fin 2) ∈ dR.rhsBatch by decide), dif_pos (show (⟨1, Nat.one_lt_two⟩ : Fin 2) ∈ dR.rhsNonContracting by decide)]
  rfl

/-- The product of the two arrays plus the bias row on every row. -/
def whole (X : (⟨2, ![2048, 256]⟩ : Shape).Idx → EReal) (W : (⟨2, ![256, 128]⟩ : Shape).Idx → EReal)
    (B : (⟨2, ![1, 128]⟩ : Shape).Idx → EReal) : (⟨2, ![2048, 128]⟩ : Shape).Idx → EReal :=
  fun i => Host.dotGeneral (F := Ideal) (φ₁ := .f32) (φ₂ := .f32) dR none X W i + B (ix2 (0 : Fin 1) (i 1))

theorem whole_apply (X : (⟨2, ![2048, 256]⟩ : Shape).Idx → EReal) (W : (⟨2, ![256, 128]⟩ : Shape).Idx → EReal)
    (B : (⟨2, ![1, 128]⟩ : Shape).Idx → EReal) (p : Fin 2048) (q : Fin 128) :
    whole X W B (ix2 p q) = Host.dotGeneral (F := Ideal) (φ₁ := .f32) (φ₂ := .f32) dR none X W (ix2 p q) + B (ix2 (0 : Fin 1) q) := rfl

/-- The body's payload: when the three loaded blocks are the three arrays, its element `(p, q)` is the product's plus
    the bias row's element `q`. -/
theorem block_eq (X : (⟨2, ![2048, 256]⟩ : Shape).Idx → EReal) (W : (⟨2, ![256, 128]⟩ : Shape).Idx → EReal)
    (B : (⟨2, ![1, 128]⟩ : Shape).Idx → EReal)
    (x0 : FVec Ideal S2048x256 .f32) (x1 : FVec Ideal S256x128 .f32) (x2 : FVec Ideal S1x128 .f32)
    (hx : ∀ (p : Fin 2048) (k : Fin 256), x0 (ix2 p k) = X (ix2 p k))
    (hw : ∀ (k : Fin 256) (q : Fin 128), x1 (ix2 k q) = W (ix2 k q))
    (hb : ∀ (q : Fin 128), x2 (ix2 (0 : Fin 1) q) = B (ix2 (0 : Fin 1) q))
    (p : Fin 2048) (q : Fin 128) :
    k2_pay1 (F := Ideal) x0 x1 x2 (ix2 p q) = whole X W B (ix2 p q) := by
  rw [whole_apply]
  unfold k2_pay1
  show FloatOps.matmul dK none (truncf .bf16 (shapeCast S2048x256 x0 _) _) (truncf .bf16 x1 _) (constant S2048x128 .f32 0x00000000#32) (ix2 p q)
      + broadcastTo S2048x128 (shapeCast S1x128 x2 _) _ (ix2 p q) = _
  rw [broadcastTo_1b_ab_apply, shapeCast_self, shapeCast_self, hb q]
  refine congrArg (· + B (ix2 (0 : Fin 1) q)) ?_
  refine (Cert.PlainDot.matmul_zero_apply dK rfl rfl rfl rfl dK_l0 dK_r1 none _ _ p q).trans ?_
  refine Eq.trans ?_ (Cert.PlainDot.dotGeneral_apply dR rfl rfl rfl rfl dR_l0 dR_r1 none HostSchedule.single X W p q).symm
  refine Finset.sum_congr rfl fun k _ => ?_
  show x0 (ix2 p k) * x1 (ix2 k q) = _
  rw [hx p k, hw k q]

theorem hz : (![0, 0] : Fin 2 → Nat) = fun _ => 0 := funext fun a => by fin_cases a <;> rfl

/-- The printed index maps at the grid's one point: every block is the block `(0, 0)`. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- What the one point writes back is the whole result. -/
theorem flushed_eq (c : Dev nD) (t : Fin cfg2.N) :
    (dat2 (F := Ideal) V c).flushed 3 t
      = ((cfg2.win 3).blk t).view.read (Elt Ideal) (whole (V c main_v77) (V c main_arg7) (V c main_v78)) := by
  show (cfg2.win 3).cut (grid2.coords t) ((dat2 V c).after 3 t) = _
  rw [after2_3]
  unfold out2_3
  rw [View.canon_unit_zero hz]
  simp only [View.ld_unit_zero (S := S2048x256) hz, View.ld_unit_zero (S := S256x128) hz, View.ld_unit_zero (S := S1x128) hz]
  obtain ⟨e0, e1, e2, e3, e4, e5, e6, e7⟩ := idx_facts t
  funext j
  obtain ⟨p, q, rfl⟩ : ∃ (p : Fin 2048) (q : Fin 128), j = ix2 p q := ⟨j 0, j 1, eq_ix2 j⟩
  show k2_pay1 (iblk2 V c 0 t) (iblk2 V c 1 t) (iblk2 V c 2 t) (ix2 p q)
      = whole (V c main_v77) (V c main_arg7) (V c main_v78) (((cfg2.win 3).blk t).view.emb (ix2 p q))
  have hemb : ((cfg2.win 3).blk t).view.emb (ix2 p q) = ix2 p q := by
    funext a; apply Fin.ext
    match a with
    | ⟨0, _⟩ => show win2_3.index t (0 : Fin 2) * 2048 + 1 * p.val = p.val; omega
    | ⟨1, _⟩ => show win2_3.index t (1 : Fin 2) * 128 + 1 * q.val = q.val; omega
  rw [hemb]
  refine block_eq (V c main_v77) (V c main_arg7) (V c main_v78) (iblk2 V c 0 t) (iblk2 V c 1 t) (iblk2 V c 2 t) (fun p k => ?_) (fun k q => ?_) (fun q => ?_) p q
  · show V c main_v77 (((cfg2.win 0).blk t).view.emb (ix2 p k)) = V c main_v77 (ix2 p k)
    refine congrArg (V c main_v77) (funext fun a => Fin.ext ?_)
    match a with
    | ⟨0, _⟩ => show win2_0.index t (0 : Fin 2) * 2048 + 1 * p.val = p.val; omega
    | ⟨1, _⟩ => show win2_0.index t (1 : Fin 2) * 256 + 1 * k.val = k.val; omega
  · show V c main_arg7 (((cfg2.win 1).blk t).view.emb (ix2 k q)) = V c main_arg7 (ix2 k q)
    refine congrArg (V c main_arg7) (funext fun a => Fin.ext ?_)
    match a with
    | ⟨0, _⟩ => show win2_1.index t (0 : Fin 2) * 256 + 1 * k.val = k.val; omega
    | ⟨1, _⟩ => show win2_1.index t (1 : Fin 2) * 128 + 1 * q.val = q.val; omega
  · show V c main_v78 (((cfg2.win 2).blk t).view.emb (ix2 (0 : Fin 1) q)) = V c main_v78 (ix2 (0 : Fin 1) q)
    refine congrArg (V c main_v78) (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 128 + 1 * q.val = q.val; omega

/-- An index of the result array is in the point's block iff each coordinate is in the block's range on its axis. -/
theorem mem_blk (t : Fin cfg2.N) (i : S2048x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v79).slice (win2_3.rect t)).set ↔ _
  rw [View.set_slice_whole, Rect.mem_set_unit]
  exact Iff.rfl

/-- The one block is the whole result array. -/
theorem cover (i : S2048x128.Idx) : ∃ t : Fin cfg2.N, (cfg2.win 3).flush t = true ∧ i ∈ ((cfg2.win 3).blk t).view.set := by
  have hi0 : (i 0).val < 2048 := (i 0).isLt
  have hi1 : (i 1).val < 128 := (i 1).isLt
  obtain ⟨e0, e1, e2, e3, e4, e5, e6, e7⟩ := idx_facts t2_0
  refine ⟨t2_0, flush2_3 t2_0, ?_⟩
  rw [mem_blk]
  intro a
  match a with
  | ⟨0, _⟩ => show win2_3.index t2_0 (0 : Fin 2) * 2048 ≤ (i 0).val ∧ (i 0).val < win2_3.index t2_0 (0 : Fin 2) * 2048 + 2048; omega
  | ⟨1, _⟩ => show win2_3.index t2_0 (1 : Fin 2) * 128 ≤ (i 1).val ∧ (i 1).val < win2_3.index t2_0 (1 : Fin 2) * 128 + 128; omega

/-- The result array after the region: the product of the two arrays plus the bias row, as the region finds them. -/
theorem array_eq (c : Dev nD) :
    (dat2 (F := Ideal) V c).arrAt 3 cfg2.N = whole (V c main_v77) (V c main_arg7) (V c main_v78) :=
  (dat2 (F := Ideal) V c).arrAt_eq_of_cover 3 (whole (V c main_v77) (V c main_arg7) (V c main_v78)) (fun t _ => flushed_eq V c t) cover

end Cert.KernelIdeal.Region2

end
-- ==== Proof.HostC.lean ====
/-
  The end of the kernel's program. After the second region the host operations propagate once more (the second hidden
  layer), pool the rows per graph and hand the pooled rows, the last weights and the bias as one row to the third
  region, which leaves their product plus the bias on every row (Proof/Region2.lean). Read at an index that is the
  network of Proof/Spec.lean: the bias row reshaped to `[1, 128]` and broadcast down the rows by the kernel, and
  broadcast in two steps by the host, are both `bfc[q]` at `(p, q)`.
-/
import proofs.«138710_j45509473468603_1_alg».proof.Proof.HostB
import proofs.«138710_j45509473468603_1_alg».proof.Proof.Region2
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

/-- The host's bias rows at `(p, q)`: the bias at `q`. -/
theorem biasRows_apply (b : FVec Ideal Cert.ReferenceIdeal.S128 .f32) (p : Fin 2048) (q : Fin 128) :
    Cert.Gcn.biasRows (F := Ideal) b (ix2 p q) = b (ix1 q) := by
  unfold Cert.Gcn.biasRows
  refine (broadcastInDim_apply _ _ _ (ix2 p q) (ix2 (0 : Fin 1) q) (fun a => ?_)).trans
    (broadcastInDim_apply _ _ _ (ix2 (0 : Fin 1) q) (ix1 q) (fun a => ?_))
  · match a with
    | ⟨0, _⟩ => rfl
    | ⟨1, _⟩ => rfl
  · match a with
    | ⟨0, _⟩ => rfl

variable (m : (ℓ : Loc nD τ sig) → Buf (Elt Ideal) ℓ) (ρ : Dev nD → PrngReg) (c : Dev nD)

set_option maxHeartbeats 2000000 in
/-- The pooled rows, at the third region's entry. -/
theorem pool10 : W10 m ρ c (Proc.devRef .tc main_v77) = Cert.Gcn.meanPool (F := Ideal) (Cert.Gcn.layer2 (F := Ideal) (Cert.Gcn.layer1 (F := Ideal) (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg2)) := by
  host_read
  rw [lin7 m ρ c, src7 m ρ c, dst7 m ρ c, norm7 m ρ c, arg6_7 m ρ c, arg2_7 m ρ c]
  rfl

/-- The last weights, at the third region's entry. -/
theorem wfc10 : W10 m ρ c (Proc.devRef .tc main_arg7) = m ((c : Thread nD τ).loc main_arg7) := by
  host_read
  exact arg7_7 m ρ c

/-- The bias as one row, at the third region's entry, read at `(0, q)`. -/
theorem bias10 (q : Fin 128) : W10 m ρ c (Proc.devRef .tc main_v78) (ix2 (0 : Fin 1) q) = m ((c : Thread nD τ).loc main_arg8) (ix1 q) := by
  host_read
  rw [arg8_7 m ρ c]
  exact shapeCast_a_1a_apply _ _ (0 : Fin 1) q

/-- THE RESULT: the last boundary's contents at the result buffer are the network applied to the argument arrays. -/
theorem result_eq : W11 m ρ c (Proc.devRef .tc main_v79)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((Region2.array_eq (V10 m ρ) c).trans ?_)
  show Region2.whole (W10 m ρ c (Proc.devRef .tc main_v77)) (W10 m ρ c (Proc.devRef .tc main_arg7)) (W10 m ρ c (Proc.devRef .tc main_v78)) = _
  rw [pool10 m ρ c, wfc10 m ρ c]
  funext i
  obtain ⟨p, q, rfl⟩ : ∃ (p : Fin 2048) (q : Fin 128), i = ix2 p q := ⟨i 0, i 1, eq_ix2 i⟩
  rw [Region2.whole_apply, bias10 m ρ c q]
  unfold Cert.Gcn.gcn
  show _ = Host.dotGeneral (F := Ideal) Cert.ReferenceIdeal.dot_S2048x256_S256x128_S2048x128_1_0_0_1_n_n none (Cert.Gcn.meanPool (F := Ideal) (Cert.Gcn.layer2 (F := Ideal) (Cert.Gcn.layer1 (F := Ideal) (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg2))) (m ((c : Thread nD τ).loc main_arg7)) (ix2 p q)
      + Cert.Gcn.biasRows (F := Ideal) (m ((c : Thread nD τ).loc main_arg8)) (ix2 p q)
  rw [biasRows_apply]

end Cert.KernelIdeal.Bridge

end
-- ==== Proof.lean ====
/-
  A two-layer graph convolution (self loops, symmetric degree normalisation), a mean pool per graph and a final linear
  map: the kernel's program against its jnp reference, equal at the ideal values.

  Both programs compute, with `s`, `d` the edge list's rows followed by the self loops,
    norm[j] = dinv[s[j]] · dinv[d[j]],   dinv = deg^(-1/2) where the in-degree is positive, else 0,
    H1 = max(scatter-add_d (gather_s (x·W1) · norm) + b1, 0),   H2 = max(scatter-add_d (gather_s (H1·W2) · norm) + b2, 0),
    result = (Σ_{batch = g} H2 / max(count_g, 1)) · Wfc + bfc.
  The reference takes the three matrix products with the host's `dot_general` and computes the edge weights once per
  layer; the kernel's program computes the weights once and takes each product in a pipelined region: the first two walk
  the rows in 20 blocks of 5000 and store each block's `tpu.matmul` into the zero accumulator of the operands rounded to
  bf16, the third does the whole product at one grid point and adds the bias row. At the ideal values a rounding is the
  identity, a `tpu.matmul` into zero and a `dot_general` are the same sum `Σ_k l[p, k] · r[k, q]` (Proof/LibPlainDot.lean),
  and row `r` of a product only needs row `r` of the left operand, so the blocks tile the product (Proof/Region0.lean,
  Region1.lean, Region2.lean). Everything else is the same host operations applied to equal values (Proof/HostA.lean,
  HostB.lean, HostC.lean read the kernel's program stretch by stretch; Proof/RefValue.lean reads the reference's run), so
  both results are the one function `Cert.Gcn.gcn` of the arguments (Proof/Spec.lean). No law used needs finiteness: the
  precondition is never opened. The kernel's idealization rewrote nothing, so `preserves` is `True`.
-/
import proofs.«138710_j45509473468603_1_alg».proof.Defs
import proofs.«138710_j45509473468603_1_alg».proof.Proof.Gen.Kernel
import proofs.«138710_j45509473468603_1_alg».proof.Proof.Gen.Kernel.Frame
import proofs.«138710_j45509473468603_1_alg».proof.Proof.Gen.KernelIdeal
import proofs.«138710_j45509473468603_1_alg».proof.Proof.Gen.KernelIdeal.Frame
import proofs.«138710_j45509473468603_1_alg».proof.Proof.Gen.ReferenceIdeal
import proofs.«138710_j45509473468603_1_alg».proof.Proof.Gen.Pre_finite_inputs
import proofs.«138710_j45509473468603_1_alg».proof.Proof.RefRun
import proofs.«138710_j45509473468603_1_alg».proof.Proof.RefValue
import proofs.«138710_j45509473468603_1_alg».proof.Proof.KernelRun
import proofs.«138710_j45509473468603_1_alg».proof.Proof.HostC
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the network applied to the argument arrays, which agree. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.result_eq m ρ c), (h c).2⟩)
      (Cert.KernelIdeal.Result.run_result m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8⟩ := hagree c
    rw [Cert.ReferenceIdeal.RefValue.res_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
